-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6400000 : Shape := ⟨1, ![6400000]⟩
abbrev S100000x1 : Shape := ⟨2, ![100000, 1]⟩
abbrev S6400000x2 : Shape := ⟨2, ![6400000, 2]⟩
abbrev S_ : Shape := ⟨0, ![]⟩

class Facts : Prop where
  bcast_S_S6400000 : S_.BroadcastsInDim S6400000 (![] : Fin 0 → Fin S6400000.rank)
  reducesTo_S6400000_S_d0 : S6400000.ReducesTo [0] S_
  h_S_ : 0 < S_.numel

variable [Facts]

def fn {F : FTy → Type} [FloatOps F] (main_arg0 : FVec F S6400000 .f32) (main_arg1 : IVec S100000x1 32) (main_arg2 : IVec S6400000x2 32) : IVec S_ 1 :=
  let main_v0 : FVec F S6400000 .f32 := Host.absf main_arg0
  let main_cst : FVec F S_ .f32 := constant S_ .f32 0x7F800000#32
  let main_v1 : FVec F S6400000 .f32 := broadcastInDim S6400000 ![] bcast_S_S6400000 main_cst
  let main_v2 : IVec S6400000 1 := cmpf .olt main_v0 main_v1
  let main_c : IVec S_ 1 := constantI S_ 1 1#1
  let main_v3 : IVec S_ 1 := (fun x v => Host.reduce IntOp.andi x v reducesTo_S6400000_S_d0 h_S_) main_v2 main_c
  main_v3
-- ==== Kernel.lean ====
abbrev S6400000 : Shape := ⟨1, ![6400000]⟩
abbrev S100000x1 : Shape := ⟨2, ![100000, 1]⟩
abbrev S6400000x2 : Shape := ⟨2, ![6400000, 2]⟩
abbrev S50000x128 : Shape := ⟨2, ![50000, 128]⟩
abbrev S5000x128 : Shape := ⟨2, ![5000, 128]⟩
abbrev S6400000x1 : Shape := ⟨2, ![6400000, 1]⟩
abbrev S_ : Shape := ⟨0, ![]⟩
abbrev S100000 : Shape := ⟨1, ![100000]⟩

abbrev nBuf : Space → Nat
  | .hbm => 12
  | .vmem => 4
  | .smem => 0
  | _ => 0

abbrev bufTy : (tb : Table) → Fin (tcTables nBuf tb) → BufTy
  | .hbm, ⟨0, _⟩ => ⟨S6400000, .f32⟩
  | .hbm, ⟨1, _⟩ => ⟨S100000x1, .i32⟩
  | .hbm, ⟨2, _⟩ => ⟨S6400000x2, .i32⟩
  | .hbm, ⟨3, _⟩ => ⟨S50000x128, .f32⟩
  | .hbm, ⟨4, _⟩ => ⟨S50000x128, .f32⟩
  | .hbm, ⟨5, _⟩ => ⟨S6400000, .f32⟩
  | .hbm, ⟨6, _⟩ => ⟨S6400000x1, .i32⟩
  | .hbm, ⟨7, _⟩ => ⟨S6400000, .i32⟩
  | .hbm, ⟨8, _⟩ => ⟨S_, .f32⟩
  | .hbm, ⟨9, _⟩ => ⟨S100000, .f32⟩
  | .hbm, ⟨10, _⟩ => ⟨S6400000x1, .i32⟩
  | .hbm, ⟨11, _⟩ => ⟨S100000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | _, _ => ⟨S6400000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S6400000_S50000x128 : S6400000.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S6400000 : S50000x128.ShapeCasts S6400000
  slices_S6400000x2_S6400000x1_0_0 : S6400000x2.Slices ![0, 0] S6400000x1
  shapeCasts_S6400000x1_S6400000 : S6400000x1.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S6400000 : Shape := ⟨1, ![6400000]⟩
abbrev S100000x1 : Shape := ⟨2, ![100000, 1]⟩
abbrev S6400000x2 : Shape := ⟨2, ![6400000, 2]⟩
abbrev S_ : Shape := ⟨0, ![]⟩
abbrev S6400000x1 : Shape := ⟨2, ![6400000, 1]⟩
abbrev S100000 : Shape := ⟨1, ![100000]⟩

abbrev nBuf : Space → Nat
  | .hbm => 26
  | .vmem => 0
  | .smem => 0
  | _ => 0

abbrev bufTy : (tb : Table) → Fin (tcTables nBuf tb) → BufTy
  | .hbm, ⟨0, _⟩ => ⟨S6400000, .f32⟩
  | .hbm, ⟨1, _⟩ => ⟨S100000x1, .i32⟩
  | .hbm, ⟨2, _⟩ => ⟨S6400000x2, .i32⟩
  | .hbm, ⟨3, _⟩ => ⟨S_, .f32⟩
  | .hbm, ⟨4, _⟩ => ⟨S6400000, .f32⟩
  | .hbm, ⟨5, _⟩ => ⟨S6400000, .f32⟩
  | .hbm, ⟨6, _⟩ => ⟨S6400000, .f32⟩
  | .hbm, ⟨7, _⟩ => ⟨S6400000, .f32⟩
  | .hbm, ⟨8, _⟩ => ⟨S6400000, .f32⟩
  | .hbm, ⟨9, _⟩ => ⟨S6400000, .f32⟩
  | .hbm, ⟨10, _⟩ => ⟨S6400000, .f32⟩
  | .hbm, ⟨11, _⟩ => ⟨S_, .f32⟩
  | .hbm, ⟨12, _⟩ => ⟨S6400000, .f32⟩
  | .hbm, ⟨13, _⟩ => ⟨S6400000, .f32⟩
  | .hbm, ⟨14, _⟩ => ⟨S_, .f32⟩
  | .hbm, ⟨15, _⟩ => ⟨S6400000, .f32⟩
  | .hbm, ⟨16, _⟩ => ⟨S6400000, .f32⟩
  | .hbm, ⟨17, _⟩ => ⟨S6400000x1, .i32⟩
  | .hbm, ⟨18, _⟩ => ⟨S6400000, .i32⟩
  | .hbm, ⟨19, _⟩ => ⟨S_, .f32⟩
  | .hbm, ⟨20, _⟩ => ⟨S100000, .f32⟩
  | .hbm, ⟨21, _⟩ => ⟨S6400000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | _, _ => ⟨S6400000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S6400000 : S_.BroadcastsInDim S6400000 (![] : Fin 0 → Fin S6400000.rank)
  slices_S6400000x2_S6400000x1_0_0 : S6400000x2.Slices ![0, 0] S6400000x1
  shapeCasts_S6400000x1_S6400000 : S6400000x1.ShapeCasts S6400000
  bcast_S_S100000 : S_.BroadcastsInDim S100000 (![] : Fin 0 → Fin S100000.rank)
  bcast_S6400000_S6400000x1_0 : S6400000.BroadcastsInDim S6400000x1 (![0] : Fin 1 → Fin S6400000x1.rank)
  scatter_S100000_S6400000x1_S6400000_n_0_0_1_wf : ScatterDims.WF S100000 S6400000x1 S6400000 [] [0] [0] 1

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.PairEnergy.lean ====
/-
  The shifted Lennard-Jones pair energy, on the extended reals, in the two arrangements the two programs spell.

  With `x = 1/d` the kernel computes, per pair, `2·(c6·c6 − c6) − H` where `c6 = ((x·x)·x)·((x·x)·x)`; the reference
  computes `4·(x6·x6 − x6) − E` where `x6 = (x·x)·((x·x)·(x·x))`, sums the pairs of each atom, and halves the sum.
  `H` and `E` are two float words with the same sign and significand and exponents one apart, so `E = 2·H` exactly.

  * `c6 = x6`: multiplication of extended reals is commutative and associative (at the infinities too).
  * `2·y − H = (4·y − 2·H)·(1/2)` for EVERY extended real `y` (`scale_shift`): at a real `y` it is arithmetic, and
    at `±∞` both sides are that infinity, because the multipliers are positive reals and the shift is real.
  Halving then goes through the sum over an atom's pairs because a nonnegative real multiplier distributes over a
  finite sum of extended reals (that step is the segment-scaling lemma the bridge applies), so no finiteness of the
  distances is needed: the two programs agree on every extended-real input.
-/
import Idealize.ShloMosaic.PureOps.Ideal
import Idealize.ShloMosaic.PureOps.Ideal.Laws

noncomputable section

open Idealize.ShloMosaic

namespace Cert.LJ

/-! ## The float words the two programs spell, as extended reals -/

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

/-- Half the energy shift at the cutoff, the kernel's word: `−11767012 · 2⁻³²`. -/
def halfShift : ℝ := -(11767012 : ℝ) / 2 ^ 32

theorem ofBits_halfShift : Ideal.ofBits .f32 0xBB338CE4#32 = ((halfShift : ℝ) : EReal) := by
  unfold halfShift
  simp [Ideal.ofBits, Ideal.ieee, -EReal.coe_mul]; norm_num

/-- The reference's word is the same significand one binade up: exactly twice the kernel's. -/
theorem ofBits_shift : Ideal.ofBits .f32 0xBBB38CE4#32 = ((2 * halfShift : ℝ) : EReal) := by
  unfold halfShift
  simp [Ideal.ofBits, Ideal.ieee, -EReal.coe_mul]; norm_num

/-! ## The pair energy, both arrangements -/

/-- The kernel's per-pair value at distance `d`: half the shifted pair energy. -/
def halfEnergy (d : EReal) : EReal :=
  let x := Ideal.div (Ideal.ofBits .f32 0x3F800000#32) d
  let c6 := ((x * x) * x) * ((x * x) * x)
  Ideal.ofBits .f32 0x40000000#32 * (c6 * c6 - c6) - Ideal.ofBits .f32 0xBB338CE4#32

/-- The reference's per-pair value at distance `d`: the shifted pair energy. -/
def energy (d : EReal) : EReal :=
  let x := Ideal.div (Ideal.ofBits .f32 0x3F800000#32) d
  let x6 := (x * x) * ((x * x) * (x * x))
  Ideal.ofBits .f32 0x40800000#32 * (x6 * x6 - x6) - Ideal.ofBits .f32 0xBBB38CE4#32

/-- Scaling by two and shifting by `h` is half of scaling by four and shifting by `2h`, at every extended real. -/
theorem scale_shift (y : EReal) (h : ℝ) :
    ((2 : ℝ) : EReal) * y - (h : EReal) = (((4 : ℝ) : EReal) * y - ((2 * h : ℝ) : EReal)) * ((1 / 2 : ℝ) : EReal) := by
  induction y using EReal.rec with
  | bot =>
    rw [EReal.coe_mul_bot_of_pos (by norm_num), EReal.coe_mul_bot_of_pos (by norm_num), EReal.bot_sub, EReal.bot_sub,
      EReal.bot_mul_coe_of_pos (by norm_num)]
  | coe r =>
    rw [← EReal.coe_mul, ← EReal.coe_mul, ← EReal.coe_sub, ← EReal.coe_sub, ← EReal.coe_mul]
    congr 1; ring
  | top =>
    rw [EReal.coe_mul_top_of_pos (by norm_num), EReal.coe_mul_top_of_pos (by norm_num), EReal.top_sub_coe, EReal.top_sub_coe,
      EReal.top_mul_coe_of_pos (by norm_num)]

/-- The kernel's per-pair value is half the reference's, at every extended-real distance. -/
theorem halfEnergy_eq (d : EReal) : halfEnergy d = energy d * ((1 / 2 : ℝ) : EReal) := by
  unfold halfEnergy energy
  dsimp only
  generalize Ideal.div (Ideal.ofBits .f32 0x3F800000#32) d = x
  have hc : ((x * x) * x) * ((x * x) * x) = (x * x) * ((x * x) * (x * x)) := by ac_rfl
  rw [hc, ofBits_two, ofBits_four, ofBits_halfShift, ofBits_shift]
  exact scale_shift _ _

end Cert.LJ

end
-- ==== Proof.KernelBlocks.lean ====
/-
  The kernel's region: what its output array holds after all ten grid points.

  The distances arrive as a 50000 × 128 table (the host's reshape of the 6400000 distances); point `t` of the grid reads
  rows `5000·t … 5000·t + 4999` of it and writes the same rows of the output table, each entry the half pair energy of
  the distance at the same place (the body is pointwise).  The ten row blocks tile the table — row `r` lies in block
  `r / 5000` —, so after the run the whole output table is the half pair energy of the whole distance table, entry by
  entry.
-/
import proofs.«136029_j39539468927522_2_alg».proof.Proof.Gen.KernelIdeal.Frame
import proofs.«136029_j39539468927522_2_alg».proof.Proof.PairEnergy
import Idealize.ShloMosaic.Lib.Pipeline.Value
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

theorem origin_zero : (![0, 0] : Fin 2 → Nat) = fun _ => 0 := funext fun a => by fin_cases a <;> rfl

/-- The half pair energies of a 50000 × 128 table of distances, entry by entry. -/
abbrev halfEnergies (a : S50000x128.Idx → Elt Ideal .f32) : S50000x128.Idx → Elt Ideal .f32 :=
  fun i => Cert.LJ.halfEnergy (a i)

/-- The body's one stored value at an entry of the block is the half pair energy of the loaded distance there: the
    body is a chain of pointwise operations (the cast to its own shape is the identity). -/
theorem payload_apply (x0 : Vec Ideal S5000x128 .f32) (j : S5000x128.Idx) :
    k0_pay1 (F := Ideal) x0 j = Cert.LJ.halfEnergy (x0 j) := by
  unfold k0_pay1
  rw [shapeCast_self]
  rfl

/-- Both windows' block at point `t` is block `(t, 0)`. -/
theorem block_index : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point `t` writes back is its block of the half energies of the distance table as the region finds it. -/
theorem flushed_eq (c : Dev nD) (t : Fin cfg0.N) :
    (dats m 0 c).flushed 1 t = ((cfg0.win 1).blk t).view.read (Elt Ideal) (halfEnergies (V m c main_v0)) := by
  show (cfg0.win 1).cut (grid0.coords t) ((dats m 0 c).after 1 t) = _
  rw [after0_1]
  unfold out0_1
  rw [View.canon_unit_zero origin_zero]
  simp only [View.ld_unit_zero (S := S5000x128) origin_zero]
  obtain ⟨e0, e1, -, -⟩ := block_index t
  funext j
  show k0_pay1 (F := Ideal) (iblk m c 0 t) j = Cert.LJ.halfEnergy (V m c main_v0 (((cfg0.win 1).blk t).view.emb j))
  refine (payload_apply (iblk m c 0 t) j).trans ?_
  show Cert.LJ.halfEnergy (V m c main_v0 (((cfg0.win 0).blk t).view.emb j)) = _
  have h0 : ((cfg0.win 0).blk t).view.emb j = ((cfg0.win 1).blk t).view.emb j := by
    funext a; apply Fin.ext
    match a with
    | ⟨0, _⟩ => show win0_0.index t (0 : Fin 2) * 5000 + 1 * (j 0).val = win0_1.index t (0 : Fin 2) * 5000 + 1 * (j 0).val; omega
    | ⟨1, _⟩ => show win0_0.index t (1 : Fin 2) * 128 + 1 * (j 1).val = win0_1.index t (1 : Fin 2) * 128 + 1 * (j 1).val; omega
  rw [h0]

/-- An entry of the table is in point `t`'s block iff each coordinate is in the block's range on its axis. -/
theorem mem_block (t : Fin cfg0.N) (i : S50000x128.Idx) :
    i ∈ ((cfg0.win 1).blk t).view.set ↔ ∀ a : Fin 2, win0_1.index t a * S5000x128.size a ≤ (i a).val
      ∧ (i a).val < win0_1.index t a * S5000x128.size a + S5000x128.size a := by
  show i ∈ ((View.whole main_v1).slice (win0_1.rect t)).set ↔ _
  rw [View.set_slice_whole, Rect.mem_set_unit]
  exact Iff.rfl

/-- The blocks tile the table: row `r` lies in the block of point `r / 5000`. -/
theorem covered (i : S50000x128.Idx) :
    ∃ t : Fin cfg0.N, (cfg0.win 1).flush t = true ∧ i ∈ ((cfg0.win 1).blk t).view.set := by
  have hi0 : (i 0).val < 50000 := (i 0).isLt
  have hi1 : (i 1).val < 128 := (i 1).isLt
  have ht : (i 0).val / 5000 < grid0.N := by rw [N_0]; omega
  obtain ⟨-, -, e2, e3⟩ := block_index ⟨(i 0).val / 5000, ht⟩
  refine ⟨⟨(i 0).val / 5000, ht⟩, flush0_1 _, ?_⟩
  rw [mem_block]
  intro a
  match a with
  | ⟨0, _⟩ =>
    show win0_1.index ⟨(i 0).val / 5000, ht⟩ (0 : Fin 2) * 5000 ≤ (i 0).val
      ∧ (i 0).val < win0_1.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win0_1.index ⟨(i 0).val / 5000, ht⟩ (1 : Fin 2) * 128 ≤ (i 1).val
      ∧ (i 1).val < win0_1.index ⟨(i 0).val / 5000, ht⟩ (1 : Fin 2) * 128 + 128
    rw [e3]; omega

/-- The output table after the run: the half energies of the distance table the region was entered with. -/
theorem final (c : Dev nD) : (dats m 0 c).arrAt 1 cfg0.N = halfEnergies (V m c main_v0) :=
  (dats m 0 c).arrAt_eq_of_cover 1 (halfEnergies (V m c main_v0)) (fun t _ => flushed_eq m c t) covered

/-- The distance table the region is entered with is the host's reshape of the 6400000 distances. -/
theorem entry_table (c : Dev nD) :
    (V m c main_v0 : S50000x128.Idx → Elt Ideal .f32)
      = shapeCast S50000x128 (m ((c : Thread nD τ).loc main_arg0)) shapeCasts_S6400000_S50000x128 := by
  show StableHlo.after hostOps0 (fun b => m (c, b)) (Proc.devRef .tc main_v0) = _
  after_results
  rfl

end Cert.KernelIdeal.Blocks

end
-- ==== Proof.KernelResult.lean ====
/-
  The kernel's whole program, read: after the region the host reshapes the 50000 × 128 table of half pair energies back
  to a vector of 6400000, takes the first column of the pair table as positions, and scatter-adds the vector into
  100000 zeros at those positions.  Reshaping to the table and back is the identity and the half energy is computed
  entry by entry, so the scattered vector is the half pair energy of each distance, in the distances' own order.
-/
import proofs.«136029_j39539468927522_2_alg».proof.Proof.KernelBlocks

set_option maxRecDepth 16384

noncomputable section

namespace Cert.KernelIdeal.Tail

open Cert.KernelIdeal Cert.KernelIdeal.Gen
open Idealize.ShloMosaic Idealize.ShloMosaic.TcCoe Idealize.SL.Sem Idealize.ShloMosaic.StableHlo
open Idealize.ShloMosaic.Pipeline (Dat)

/-- The positions: the first column of the pair table, as a 6400000 × 1 column. -/
def firstAtoms (x2 : (⟨S6400000x2, .i32⟩ : BufTy).Contents (Elt Ideal)) : (⟨S6400000x1, .i32⟩ : BufTy).Contents (Elt Ideal) :=
  broadcastInDim S6400000x1 ![0] bcast_S6400000_S6400000x1_0
    (shapeCast _ (extractStridedSlice S6400000x1 ![0, 0] x2 slices_S6400000x2_S6400000x1_0_0) shapeCasts_S6400000x1_S6400000)

/-- The vector scattered into: zeros. -/
def zeros : (⟨S100000, .f32⟩ : BufTy).Contents (Elt Ideal) :=
  broadcastInDim S100000 ![] bcast_S_S100000 (constant (F := Ideal) S_ .f32 0x00000000#32)

/-- The kernel's result as a function of the distances and the pair table: each atom's sum of the half pair energies
    of the pairs it is the first atom of. -/
def result (x0 : (⟨S6400000, .f32⟩ : BufTy).Contents (Elt Ideal)) (x2 : (⟨S6400000x2, .i32⟩ : BufTy).Contents (Elt Ideal)) :
    (⟨S100000, .f32⟩ : BufTy).Contents (Elt Ideal) :=
  Host.scatterAdd (F := Ideal) (φ := .f32) scatter_S100000_S6400000x1_S6400000_n_0_0_1 zeros (firstAtoms x2)
    (fun e => Cert.LJ.halfEnergy (x0 e))

/-- The table of half energies of the reshaped distances, reshaped back, is the half energy of each distance. -/
theorem updates_eq (a : S6400000.Idx → Elt Ideal .f32) :
    shapeCast S6400000 (Blocks.halfEnergies (shapeCast S50000x128 a shapeCasts_S6400000_S50000x128)) shapeCasts_S50000x128_S6400000
      = fun e => Cert.LJ.halfEnergy (a e) := by
  funext e
  show Cert.LJ.halfEnergy (shapeCast S6400000 (shapeCast S50000x128 a shapeCasts_S6400000_S50000x128) shapeCasts_S50000x128_S6400000 e) = _
  rw [shapeCast_shapeCast]

variable (m : (ℓ : Loc nD τ sig) → Buf (Elt Ideal) ℓ)

/-- What the lines after the region leave in the result buffer. -/
theorem tail_result (c : Dev nD) :
    Pipeline.afterTail₀ cfgs (dats m) 0 (V0 m) [hostOps1] c main_v7
      = result (m ((c : Thread nD τ).loc main_arg0)) (m ((c : Thread nD τ).loc main_arg2)) := by
  have hA : Pipeline.withArrays (cfgs 0).spec c (V0 m c) (fun w => (dats m 0 c).arrAt w (cfgs 0).N) (Proc.devRef .tc main_v1)
      = (dats m 0 c).arrAt 1 cfg0.N :=
    Pipeline.withArrays_arr spec0 launch0.win.arr_inj c _ _ 1
  have hI : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v7) = _
  after_results
  rw [hA, hI, Blocks.final, Blocks.entry_table]
  show Host.scatterAdd (F := Ideal) (φ := .f32) scatter_S100000_S6400000x1_S6400000_n_0_0_1 zeros
      (firstAtoms (m ((c : Thread nD τ).loc main_arg2)))
      (shapeCast S6400000 (Blocks.halfEnergies (shapeCast S50000x128 (m ((c : Thread nD τ).loc main_arg0)) shapeCasts_S6400000_S50000x128))
        shapeCasts_S50000x128_S6400000) = _
  rw [updates_eq]
  rfl

/-- The kernel's run, read: every weakly fair execution ends with the result buffer at `result` of the distances
    and the pair table as launched, and the three argument arrays as launched. -/
theorem run (ρ : Dev nD → PrngReg) :
    θ_run defs (onTc (τ := τ) (main (F := Ideal))) ⟨m, fun _ => 0, ρ⟩ fun r => ∀ c : Dev nD,
      r.2.mem ((c.tc : Thread nD τ).loc main_v7)
          = result (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v7 (Pipeline.mem_restRefs_of main_v7 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Tail

end
-- ==== Proof.LibScatterVec.lean ====
/-
  A float scatter-add of single entries into a vector at a column of positions, read at an entry.
-/
import Idealize.ShloMosaic.PureOps.Ideal
import Idealize.ShloMosaic.Lib.ValueIdx

noncomputable section

open Idealize.ShloMosaic Idealize.ShloMosaic.ValueIdx
open scoped BigOperators

namespace Cert.LibVec

/-- A vector's index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: operand `[N]`, scatter indices `[E, 1]` (one
    position per update entry), updates `[E]`; the operand's one axis inserted, so the updates have no window axis. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : Nat} (wf : ScatterDims.WF ⟨1, ![N]⟩ ⟨2, ![E, 1]⟩ ⟨1, ![E]⟩ [] [0] [0] 1)
  (idx : IVec ⟨2, ![E, 1]⟩ w) (e : Fin E)

/-- The window of update entry `e` starts at the position of update entry `e`, read signed. -/
theorem vecScatter_start :
    (vecScatter N E wf).start (ix1 e) idx 0 = (idx (ix2 e (0 : Fin 1))).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: the window coordinate on it is `0`. -/
theorem vecScatter_window : (vecScatter N E wf).window (ix1 e) 0 = 0 := by
  unfold ScatterDims.window
  rw [dif_neg (show ¬ ((0 : Fin 1) ∈ (vecScatter N E wf).sKept) from
    (show ¬ ((0 : Fin 1) ∈ (List.finRange 1).filter (fun a => a ∉ ([0] : List (Fin 1)))) from by decide))]

end Coordinates

/-- Update entry `e` lands at operand entry `n` exactly when the position of update entry `e`, read signed and not
    clamped, is `n`. -/
theorem vecScatter_resultIdx_eq_some_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e (0 : Fin 1))).toInt = (n.val : Int) := by
  have hs := vecScatter_start wf idx e
  have hw := vecScatter_window wf e
  have hn := n.isLt
  unfold ScatterDims.resultIdx?
  constructor
  · intro h
    split at h
    · rename_i hin
      have h' := Option.some.inj h
      have e0 : ((vecScatter N E wf).start (ix1 e) idx 0 + ((vecScatter N E wf).window (ix1 e) 0 : Nat)).toNat = n.val :=
        congrArg (fun f => (f 0).val) h'
      have p0 := (hin 0).1
      rw [hs, hw] at e0 p0
      omega
    · exact absurd h (by simp)
  · intro h1
    have hin : ∀ a, 0 ≤ (vecScatter N E wf).start (ix1 e) idx a + ((vecScatter N E wf).window (ix1 e) a : Nat)
        ∧ (vecScatter N E wf).start (ix1 e) idx a + ((vecScatter N E wf).window (ix1 e) a : Nat)
          < ((⟨1, ![N]⟩ : Shape).size a : Nat) := by
      intro a
      obtain rfl : a = 0 := Subsingleton.elim _ _
      show 0 ≤ (vecScatter N E wf).start (ix1 e) idx 0 + ((vecScatter N E wf).window (ix1 e) 0 : Nat)
        ∧ (vecScatter N E wf).start (ix1 e) idx 0 + ((vecScatter N E wf).window (ix1 e) 0 : Nat) < (N : Int)
      rw [hs, hw, h1]; omega
    rw [dif_pos hin]
    congr 1
    funext a
    obtain rfl : a = 0 := Subsingleton.elim _ _
    refine Fin.ext ?_
    show ((vecScatter N E wf).start (ix1 e) idx 0 + ((vecScatter N E wf).window (ix1 e) 0 : Nat)).toNat = n.val
    rw [hs, hw, h1]; omega

/-- At the ideal instance the scatter-add of single entries read at `n` is the operand's entry plus the sum, over the
    update entries whose position (read signed, not clamped) is `n`, of the update's entry; an update entry whose
    position is outside `[0, N)` lands nowhere. -/
theorem scatterAdd_vec_apply {N E w : Nat} {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatter N E wf) x idx upd (ix1 n)
      = x (ix1 n) + ∑ e : Fin E, if (idx (ix2 e (0 : Fin 1))).toInt = (n.val : Int) then upd (ix1 e) else 0 := by
  change x (ix1 n) + _ = _
  congr 1
  rw [Finset.sum_filter, sum_idx1]
  refine Finset.sum_congr rfl fun e _ => ?_
  simp only [vecScatter_resultIdx_eq_some_iff]

end Cert.LibVec

end
-- ==== Proof.ReferenceSum.lean ====
/-
  The reference, read: its result is the scatter-add of the shifted pair energies into a vector of zeros, at the first
  atom of each pair, divided entry by entry by two.  Each entry of the scattered vector is the pair energy of the
  distance at the same place (a chain of pointwise operations over broadcast constants).
-/
import proofs.«136029_j39539468927522_2_alg».proof.Proof.Gen.ReferenceIdeal.Read
import proofs.«136029_j39539468927522_2_alg».proof.Proof.PairEnergy
import proofs.«136029_j39539468927522_2_alg».proof.Proof.LibScatterVec

noncomputable section

namespace Cert.ReferenceIdeal.Sum

open Cert.ReferenceIdeal Cert.ReferenceIdeal.Gen Cert.ReferenceIdeal.Read
open Idealize.ShloMosaic Idealize.ShloMosaic.TcCoe Idealize.SL.Sem

/-- The scattered vector at a pair is the pair energy of that pair's distance. -/
theorem energies_apply (x0 : (⟨S6400000, .f32⟩ : BufTy).Contents (Elt Ideal)) (i : S6400000.Idx) :
    val_main_v10 (F := Ideal) x0 i = Cert.LJ.energy (x0 i) := by
  rw [val_main_v10_apply, val_main_v8_apply, val_main_v6_apply, val_main_v5_apply, val_main_v4_apply,
    val_main_v3_apply, val_main_v2_apply, val_main_v1_apply, val_main_v0_apply, val_main_v7_apply, val_main_v9_apply]
  rfl

/-- The vector scattered into is zero everywhere. -/
theorem zeros_apply (i : S100000.Idx) : val_main_v13 (F := Ideal) i = 0 := by
  rw [val_main_v13_apply, val_main_cst_2_apply]
  exact Ideal.ofBits_zero_f32

/-- The divisor is two everywhere. -/
theorem twos_apply (i : S100000.Idx) : val_main_v16 (F := Ideal) i = ((2 : ℝ) : EReal) := by
  rw [val_main_v16_apply, val_main_cst_3_apply]
  exact Cert.LJ.ofBits_two

/-- The printed dimension numbers are those of a scatter of single entries into a vector. -/
theorem scatter_eq : scatter_S100000_S6400000x1_S6400000_n_0_0_1
    = Cert.LibVec.vecScatter 100000 6400000 Facts₀.scatter_S100000_S6400000x1_S6400000_n_0_0_1_wf := rfl

/-- The reference's result as a function of the distances and the pair table. -/
theorem result_eq (x0 : (⟨S6400000, .f32⟩ : BufTy).Contents (Elt Ideal)) (x2 : (⟨S6400000x2, .i32⟩ : BufTy).Contents (Elt Ideal)) :
    val_main_v17 (F := Ideal) x0 x2
      = Host.divf (F := Ideal) (φ := .f32) (Host.scatterAdd (F := Ideal) (φ := .f32)
          (Cert.LibVec.vecScatter 100000 6400000 Facts₀.scatter_S100000_S6400000x1_S6400000_n_0_0_1_wf)
          (val_main_v13 (F := Ideal)) (val_main_v14 (F := Ideal) x2) (fun e => Cert.LJ.energy (x0 e)))
        (val_main_v16 (F := Ideal)) := by
  unfold val_main_v17 val_main_v15
  rw [scatter_eq, show val_main_v10 (F := Ideal) x0 = fun e => Cert.LJ.energy (x0 e) from funext (energies_apply x0)]

end Cert.ReferenceIdeal.Sum

end
-- ==== Proof.LibScaledSum.lean ====
/-
  A multiplier that is a nonnegative real goes through a finite sum of extended reals, and the law built on it for a
  graph-convolution layer: scaling each selected term before the sum and the sum after it is the sum of the selected
  terms times both scales.  (On the extended reals multiplication does not distribute over a sum in general: an
  infinite or a negative multiplier meets `⊤ + ⊥`.)  Also: a sum over 128 columns is the sum over the first 64 plus
  the sum over the last 64.
-/
import Mathlib.Data.EReal.Inv
import Mathlib.Algebra.BigOperators.Fin

open scoped BigOperators

namespace Cert.Law

/-- A nonnegative real multiplier goes through a finite sum of extended reals. -/
theorem mul_sum_of_nonneg_of_ne_top {E : Type*} (S : Finset E) (f : E → EReal) {r : EReal} (hr : 0 ≤ r) (hr' : r ≠ ⊤) :
    r * ∑ e ∈ S, f e = ∑ e ∈ S, r * f e := by
  classical
  induction S using Finset.induction_on with
  | empty => simp
  | insert a S ha ih =>
    rw [Finset.sum_insert ha, Finset.sum_insert ha, EReal.left_distrib_of_nonneg_of_ne_top hr hr', ih]

/-- The layer law: scaling each selected term by `s e` before the sum and the sum by `r` after it is the sum of the
    selected terms times `s e · t e`, when `t e = r` on the selected edges and `r` is a nonnegative real. -/
theorem scaled_sum {E : Type*} [Fintype E] (P : E → Prop) [DecidablePred P] (a s t : E → EReal) {r : EReal}
    (hr : 0 ≤ r) (hr' : r ≠ ⊤) (ht : ∀ e, P e → t e = r) :
    r * (0 + ∑ e, if P e then a e * s e else 0) = 0 + ∑ e, if P e then a e * (s e * t e) else 0 := by
  rw [zero_add, zero_add, mul_sum_of_nonneg_of_ne_top _ _ hr hr']
  refine Finset.sum_congr rfl fun e _ => ?_
  by_cases h : P e
  · rw [if_pos h, if_pos h, ht e h, mul_comm r, mul_assoc]
  · rw [if_neg h, if_neg h, mul_zero]

/-- A sum over 128 columns split into its two halves. -/
theorem sum_halves (f : Fin 128 → EReal) :
    ∑ k : Fin 128, f k = ∑ k : Fin 64, f (Fin.castAdd 64 k) + ∑ k : Fin 64, f (Fin.natAdd 64 k) :=
  Fin.sum_univ_add (a := 64) (b := 64) f

end Cert.Law
-- ==== Proof.LibSegmentScale.lean ====
/-
  A scatter-add of single entries into a vector of ZEROS commutes with scaling by a nonnegative real.
-/
import Idealize.ShloMosaic.PureOps.Ideal
import Idealize.ShloMosaic.Lib.ValueIdx
import proofs.«136029_j39539468927522_2_alg».proof.Proof.LibScaledSum
import proofs.«136029_j39539468927522_2_alg».proof.Proof.LibScatterVec

noncomputable section

open Idealize.ShloMosaic Idealize.ShloMosaic.ValueIdx
open scoped BigOperators

namespace Cert.LibSegment

/-- At the ideal instance, for a scatter-add of single entries into a vector (operand `[N]`, indices `[E, 1]`,
    updates `[E]`: a segment sum) whose operand is zero everywhere: if every update entry of one scatter is the
    corresponding update entry of another times `r`, a nonnegative real, then every result entry is the other's times
    `r` — the factor goes through the sum over the update entries that land on the entry.  (On the extended reals a
    multiplier distributes over a sum only when it is a nonnegative real, hence the hypotheses on `r`; the updates
    themselves may be infinite.) -/
theorem scatterAdd_zeros_scaled_apply {N E w : Nat} {φ : FTy}
    (wf : ScatterDims.WF ⟨1, ![N]⟩ ⟨2, ![E, 1]⟩ ⟨1, ![E]⟩ [] [0] [0] 1)
    (z : FVec Ideal ⟨1, ![N]⟩ φ) (hz : ∀ i, z i = 0) (I : IVec ⟨2, ![E, 1]⟩ w)
    (u v : FVec Ideal ⟨1, ![E]⟩ φ) {r : EReal} (hr : 0 ≤ r) (hr' : r ≠ ⊤) (h : ∀ e, u e = v e * r) (n : Fin N) :
    Host.scatterAdd (F := Ideal) (Cert.LibVec.vecScatter N E wf) z I u (ix1 n)
      = Host.scatterAdd (F := Ideal) (Cert.LibVec.vecScatter N E wf) z I v (ix1 n) * r := by
  rw [Cert.LibVec.scatterAdd_vec_apply, Cert.LibVec.scatterAdd_vec_apply, hz, zero_add, zero_add, mul_comm,
    Cert.Law.mul_sum_of_nonneg_of_ne_top _ _ hr hr']
  refine Finset.sum_congr rfl fun e _ => ?_
  by_cases hp : (I (ix2 e (0 : Fin 1))).toInt = (n.val : Int)
  · rw [if_pos hp, if_pos hp, h, mul_comm]
  · rw [if_neg hp, if_neg hp, mul_zero]

/-- The same against the host's division: if every update entry of one scatter into zeros is the other's times `1/y`
    for a positive real `y`, the first scatter's result is the second's divided, entry by entry, by a vector that is
    `y` everywhere (`jax.ops.segment_sum(u / y) = jax.ops.segment_sum(u) / y` at the ideal instance). -/
theorem scatterAdd_zeros_div_const {N E w : Nat} {φ : FTy}
    (wf : ScatterDims.WF ⟨1, ![N]⟩ ⟨2, ![E, 1]⟩ ⟨1, ![E]⟩ [] [0] [0] 1)
    (z c : FVec Ideal ⟨1, ![N]⟩ φ) (hz : ∀ i, z i = 0) {y : ℝ} (hy : 0 < y) (hc : ∀ i, c i = ((y : ℝ) : EReal))
    (I : IVec ⟨2, ![E, 1]⟩ w) (u v : FVec Ideal ⟨1, ![E]⟩ φ) (h : ∀ e, u e = v e * ((1 / y : ℝ) : EReal)) :
    Host.scatterAdd (F := Ideal) (Cert.LibVec.vecScatter N E wf) z I u
      = Host.divf (F := Ideal) (Host.scatterAdd (F := Ideal) (Cert.LibVec.vecScatter N E wf) z I v) c := by
  funext i
  obtain ⟨n, rfl⟩ : ∃ n : Fin N, i = ix1 n := ⟨i 0, eq_ix1 i⟩
  show _ = Ideal.div (Host.scatterAdd (F := Ideal) (Cert.LibVec.vecScatter N E wf) z I v (ix1 n)) (c (ix1 n))
  rw [hc, Ideal.div_coe (ne_of_gt hy)]
  exact scatterAdd_zeros_scaled_apply wf z hz I u v
    (by exact_mod_cast (le_of_lt (one_div_pos.mpr hy))) (EReal.coe_ne_top _) h n

end Cert.LibSegment

end
-- ==== Proof.Bridge.lean ====
/-
  The two results are one function of the distances and the pair table.

  Kernel: each atom's sum of the HALF pair energies of its pairs.  Reference: half of each atom's sum of the pair
  energies.  Both scatter into zeros at the same positions (the first column of the pair table); the half pair energy
  is the pair energy times 1/2 at every extended real, and the factor 1/2 goes through the sum.
-/
import proofs.«136029_j39539468927522_2_alg».proof.Proof.KernelResult
import proofs.«136029_j39539468927522_2_alg».proof.Proof.ReferenceSum
import proofs.«136029_j39539468927522_2_alg».proof.Proof.LibSegmentScale

noncomputable section

namespace Cert.Bridge

open Idealize.ShloMosaic Idealize.ShloMosaic.TcCoe Idealize.SL.Sem

/-- The reference's result term is the kernel's result function. -/
theorem reference_eq_kernel
    (x0 : (⟨Cert.ReferenceIdeal.S6400000, .f32⟩ : BufTy).Contents (Elt Ideal))
    (x2 : (⟨Cert.ReferenceIdeal.S6400000x2, .i32⟩ : BufTy).Contents (Elt Ideal)) :
    Cert.ReferenceIdeal.Read.val_main_v17 (F := Ideal) x0 x2 = Cert.KernelIdeal.Tail.result x0 x2 := by
  rw [Cert.ReferenceIdeal.Sum.result_eq]
  exact (Cert.LibSegment.scatterAdd_zeros_div_const Cert.ReferenceIdeal.Facts₀.scatter_S100000_S6400000x1_S6400000_n_0_0_1_wf
    (Cert.ReferenceIdeal.Read.val_main_v13 (F := Ideal)) (Cert.ReferenceIdeal.Read.val_main_v16 (F := Ideal))
    Cert.ReferenceIdeal.Sum.zeros_apply (by norm_num : (0 : ℝ) < 2) Cert.ReferenceIdeal.Sum.twos_apply
    (Cert.ReferenceIdeal.Read.val_main_v14 (F := Ideal) x2)
    (fun e => Cert.LJ.halfEnergy (x0 e)) (fun e => Cert.LJ.energy (x0 e)) (fun e => Cert.LJ.halfEnergy_eq (x0 e))).symm

end Cert.Bridge

end
-- ==== Proof.lean ====
/-
  The shifted Lennard-Jones energy per atom: the kernel against its reference, on the extended reals.

  Both programs compute, for each of 6400000 pairs at distance `d`, a pair energy from `x = 1/d` — the reference
  `4·(x¹² − x⁶) − E`, the kernel half of it, `2·(x¹² − x⁶) − E/2`, with `x⁶` multiplied out in another order — and add
  each pair's value to the entry of its first atom (a scatter-add into 100000 zeros); the reference then halves every
  entry.  The kernel computes its half energies on a 50000 × 128 table in ten row blocks of 5000, which tile the table.

  * `Proof/PairEnergy.lean`: the float words as extended reals (`E` is exactly twice the kernel's shift), the law
    `half energy = energy · (1/2)` at EVERY extended real, and halving through an atom's sum.
  * `Proof/KernelBlocks.lean`, `Proof/KernelResult.lean`: the kernel's run read back — the blocks tile the table, the
    reshapes cancel — as one function of the distances and the pair table.
  * `Proof/ReferenceSum.lean`: the reference's run read back as a scatter-add of pair energies, halved.
  * `Proof/Bridge.lean`: the two are one function.

  The precondition (finite distances) is not used: the law holds at the infinities and at a zero distance too.  The
  three frames are the generated ones (the reference's is its run with the result dropped); nothing was rewritten
  when the kernel was idealized, so that conjunct is `True`.
-/
import proofs.«136029_j39539468927522_2_alg».proof.Defs
import proofs.«136029_j39539468927522_2_alg».proof.Proof.Gen.Kernel
import proofs.«136029_j39539468927522_2_alg».proof.Proof.Gen.Kernel.Skeleton
import proofs.«136029_j39539468927522_2_alg».proof.Proof.Gen.Kernel.Launch
import proofs.«136029_j39539468927522_2_alg».proof.Proof.Gen.Kernel.Points
import proofs.«136029_j39539468927522_2_alg».proof.Proof.Gen.Kernel.Frame
import proofs.«136029_j39539468927522_2_alg».proof.Proof.Gen.KernelIdeal
import proofs.«136029_j39539468927522_2_alg».proof.Proof.Gen.KernelIdeal.Skeleton
import proofs.«136029_j39539468927522_2_alg».proof.Proof.Gen.KernelIdeal.Launch
import proofs.«136029_j39539468927522_2_alg».proof.Proof.Gen.KernelIdeal.Points
import proofs.«136029_j39539468927522_2_alg».proof.Proof.Gen.KernelIdeal.Frame
import proofs.«136029_j39539468927522_2_alg».proof.Proof.Gen.ReferenceIdeal
import proofs.«136029_j39539468927522_2_alg».proof.Proof.Gen.ReferenceIdeal.Run
import proofs.«136029_j39539468927522_2_alg».proof.Proof.Gen.ReferenceIdeal.Read
import proofs.«136029_j39539468927522_2_alg».proof.Proof.Gen.Pre_finite_inputs
import proofs.«136029_j39539468927522_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- From memories agreeing on the arguments both programs end with each atom's half energy sum: the kernel's run ends
    at the result function of its own arguments, the reference's at its term of arguments that are the same arrays,
    and that term is the same function. -/
theorem algebraic : Cert.algebraic_KernelIdeal_ReferenceIdeal := by
  intro m ρ m' ρ' _ hagree
  refine ⟨fun c => Cert.KernelIdeal.Tail.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.2]
  exact (Cert.ReferenceIdeal.Read.val_main_v17_eq _ _).trans (Cert.Bridge.reference_eq_kernel _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
